-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  main_v3
-- ==== Kernel.lean ====
abbrev S16x512x64x64 : Shape := ⟨4, ![16, 512, 64, 64]⟩
abbrev S16x512x4096 : Shape := ⟨3, ![16, 512, 4096]⟩
abbrev S1x512x4096 : Shape := ⟨3, ![1, 512, 4096]⟩
abbrev S1x128x4096 : Shape := ⟨3, ![1, 128, 4096]⟩
abbrev S512x4096 : Shape := ⟨2, ![512, 4096]⟩
abbrev S128x4096 : Shape := ⟨2, ![128, 4096]⟩
abbrev S128x512 : Shape := ⟨2, ![128, 512]⟩
abbrev S128 : Shape := ⟨1, ![128]⟩
abbrev S128x1 : Shape := ⟨2, ![128, 1]⟩

abbrev nBuf : Space → Nat
  | .hbm => 4
  | .vmem => 5
  | .smem => 0
  | _ => 0

abbrev bufTy : (tb : Table) → Fin (tcTables nBuf tb) → BufTy
  | .hbm, ⟨0, _⟩ => ⟨S16x512x64x64, .f32⟩
  | .hbm, ⟨1, _⟩ => ⟨S16x512x4096, .f32⟩
  | .hbm, ⟨2, _⟩ => ⟨S16x512x4096, .f32⟩
  | .hbm, ⟨3, _⟩ => ⟨S16x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x128x4096, .f32⟩
  | .local _ .vmem, ⟨3, _⟩ => ⟨S1x128x4096, .f32⟩
  | .local _ .vmem, ⟨4, _⟩ => ⟨S512x4096, .bf16⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c128_i32 : BitVec 32 := 128#32
  let v4 : BitVec 32 := Scalar.muli arg1 c128_i32
  v4
def k0_off1 (i : grid0.Coords) : Fin 3 → Nat :=
  let c0_2 : Index := 0#32
  let arg1 : BitVec 32 := BitVec.ofNat 32 (i 1).val
  let c128_i32 : BitVec 32 := 128#32
  let v4 : BitVec 32 := Scalar.muli arg1 c128_i32
  let v5 : BitVec 32 := v4
  let v6 : Index := Scalar.indexCast v5
  let c0_3 : Index := 0#32
  ![0, v6.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x512x64x64_S16x512x4096 : S16x512x64x64.ShapeCasts S16x512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  h_S1x128x4096 : 0 < S1x128x4096.numel
  shapeCasts_S1x128x4096_S128x4096 : S1x128x4096.ShapeCasts S128x4096
  reduces_S128x512_S128 : S128x512.Reduces [1] S128
  shapeCasts_S128_S128x1 : S128.ShapeCasts S128x1
  broadcasts_S128x1_S128x512 : S128x1.Broadcasts S128x512
  inb_S1x128x4096_S1x128x4096_0_0_0 : ∀ a, (![0, 0, 0] : Fin 3 → Nat) a + S1x128x4096.size a ≤ S1x128x4096.size a
  shapeCasts_S128x4096_S1x128x4096 : S128x4096.ShapeCasts S1x128x4096
  shapeCasts_S16x512x4096_S16x512x64x64 : S16x512x4096.ShapeCasts S16x512x64x64
  dot_S128x4096_S512x4096_S128x512_1_1_0_0_n_n_wf : DotDims.WF S128x4096 S512x4096 S128x512 [1] [1] [0] [0] [] []
  dot_S128x512_S512x4096_S128x4096_1_0_0_1_n_n_wf : DotDims.WF S128x512 S512x4096 S128x4096 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x128x4096.size a ≤ S1x512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .f32 = 32 ∨ (Rect.block (s := S16x512x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S16x512x4096.size a
  hwx0_1 : ∀ i : grid0.Coords, EltTy.bits .f32 = 32 ∨ (Rect.block (s := S16x512x4096) S1x128x4096.size (cc0_transform_1 i) (hinb0_1 i)).WholeWords (EltTy.packing .f32)

variable [Facts₀]

def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x512x4096 : Shape := ⟨3, ![16, 512, 4096]⟩
abbrev S16x512x512 : Shape := ⟨3, ![16, 512, 512]⟩
abbrev S_ : Shape := ⟨0, ![]⟩
abbrev S16x512 : Shape := ⟨2, ![16, 512]⟩
abbrev S16x512x1 : Shape := ⟨3, ![16, 512, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x4096, .f32⟩
  | .hbm, ⟨2, _⟩ => ⟨S16x512x512, .f32⟩
  | .hbm, ⟨3, _⟩ => ⟨S_, .f32⟩
  | .hbm, ⟨4, _⟩ => ⟨S16x512, .f32⟩
  | .hbm, ⟨5, _⟩ => ⟨S16x512x1, .f32⟩
  | .hbm, ⟨6, _⟩ => ⟨S16x512x512, .f32⟩
  | .hbm, ⟨7, _⟩ => ⟨S16x512x512, .f32⟩
  | .hbm, ⟨8, _⟩ => ⟨S_, .f32⟩
  | .hbm, ⟨9, _⟩ => ⟨S16x512, .f32⟩
  | .hbm, ⟨10, _⟩ => ⟨S_, .f32⟩
  | .hbm, ⟨11, _⟩ => ⟨S16x512, .f32⟩
  | .hbm, ⟨12, _⟩ => ⟨S16x512, .f32⟩
  | .hbm, ⟨13, _⟩ => ⟨S16x512x1, .f32⟩
  | .hbm, ⟨14, _⟩ => ⟨S16x512x512, .f32⟩
  | .hbm, ⟨15, _⟩ => ⟨S16x512x512, .f32⟩
  | .hbm, ⟨16, _⟩ => ⟨S16x512x512, .f32⟩
  | .hbm, ⟨17, _⟩ => ⟨S_, .f32⟩
  | .hbm, ⟨18, _⟩ => ⟨S16x512, .f32⟩
  | .hbm, ⟨19, _⟩ => ⟨S16x512x1, .f32⟩
  | .hbm, ⟨20, _⟩ => ⟨S16x512x512, .f32⟩
  | .hbm, ⟨21, _⟩ => ⟨S16x512x512, .f32⟩
  | .hbm, ⟨22, _⟩ => ⟨S16x512x4096, .f32⟩
  | .hbm, ⟨23, _⟩ => ⟨S16x512x64x64, .f32⟩
  | .hbm, ⟨24, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S_S16x512 : S_.BroadcastsInDim S16x512 (![] : Fin 0 → Fin S16x512.rank)
  shapeCasts_S16x512x4096_S16x512x64x64 : S16x512x4096.ShapeCasts S16x512x64x64
  dot_S16x512x4096_S16x512x4096_S16x512x512_2_2_1_1_0_0_wf : DotDims.WF S16x512x4096 S16x512x4096 S16x512x512 [2] [2] [1] [1] [0] [0]
  dot_S16x512x512_S16x512x4096_S16x512x4096_2_1_1_2_0_0_wf : DotDims.WF S16x512x512 S16x512x4096 S16x512x4096 [2] [1] [1] [2] [0] [0]

variable [Facts₀]

def dot_S16x512x4096_S16x512x4096_S16x512x512_2_2_1_1_0_0 : DotDims S16x512x4096 S16x512x4096 S16x512x512 where
  lhsContracting := [2]
  rhsContracting := [2]
  lhsNonContracting := [1]
  rhsNonContracting := [1]
  lhsBatch := [0]
  rhsBatch := [0]
  wf := dot_S16x512x4096_S16x512x4096_S16x512x512_2_2_1_1_0_0_wf
def dot_S16x512x512_S16x512x4096_S16x512x4096_2_1_1_2_0_0 : DotDims S16x512x512 S16x512x4096 S16x512x4096 where
  lhsContracting := [2]
  rhsContracting := [1]
  lhsNonContracting := [1]
  rhsNonContracting := [2]
  lhsBatch := [0]
  rhsBatch := [0]
  wf := dot_S16x512x512_S16x512x4096_S16x512x4096_2_1_1_2_0_0_wf

class Facts : Prop extends Facts₀ where

variable [Facts]
-- ==== Proof.Spec.lean ====
/-
  One row of channel attention with a residual, over the extended reals.

  For one batch element let S be the 512 × 4096 matrix of features (one row per channel) and q one of its rows.  The row's
  Gram entries are g d = ∑ₙ q n · S d n.  The attention weights are the softmax of (max g) − g: with s d = (max g) − g d
  and e d = exp (s d − max s), the weight of channel d is e d / ∑ e.  The output row is (∑_d weight d · S d n) + q n.
  Every maximum is a fold of max that starts from the extended real the f32 word of −∞ denotes (both programs start from
  that same word, so it is never evaluated), and the softmax's own maximum is first joined with that value once more, as
  both programs do.
-/
import Idealize.ShloMosaic.PureOps.Ideal
import Idealize.ShloMosaic.Lib.ValueIdx

noncomputable section

open scoped BigOperators

namespace Cert.Spec

open Idealize.ShloMosaic

/-- The extended real the f32 word of −∞ denotes: where every maximum starts. -/
abbrev negInf : EReal := Ideal.ofBits .f32 0xFF800000#32

/-- The Gram entries of the row q against every row of S. -/
def gramRow (q : Fin 4096 → EReal) (S : Fin 512 → Fin 4096 → EReal) (d : Fin 512) : EReal :=
  ∑ n : Fin 4096, q n * S d n

/-- The maximum of 512 values, folded from −∞. -/
def foldMax (g : Fin 512 → EReal) : EReal := (Finset.univ : Finset (Fin 512)).fold max negInf g

/-- The row's maximum minus each Gram entry. -/
def shifted (q : Fin 4096 → EReal) (S : Fin 512 → Fin 4096 → EReal) (d : Fin 512) : EReal :=
  foldMax (gramRow q S) - gramRow q S d

/-- The softmax's numerators: the exponential of the shifted entry minus the shifted row's maximum. -/
def expo (q : Fin 4096 → EReal) (S : Fin 512 → Fin 4096 → EReal) (d : Fin 512) : EReal :=
  Ideal.exp (shifted q S d - max negInf (foldMax (shifted q S)))

/-- The attention weights: each numerator over the sum of the numerators. -/
def attn (q : Fin 4096 → EReal) (S : Fin 512 → Fin 4096 → EReal) (d : Fin 512) : EReal :=
  Ideal.div (expo q S d) (∑ d' : Fin 512, expo q S d')

/-- The output row: the weights applied to the rows of S, plus the row itself. -/
def rowOut (q : Fin 4096 → EReal) (S : Fin 512 → Fin 4096 → EReal) (n : Fin 4096) : EReal :=
  (∑ d : Fin 512, attn q S d * S d n) + q n

/-- The whole result, batch element by batch element and row by row, as a function of the feature array [16, 512, 4096]: the
    output row of channel c of batch element b is the row formula of that row against the element's feature matrix. -/
def whole (A : (⟨3, ![16, 512, 4096]⟩ : Shape).Idx → EReal) (b : Fin 16) (c : Fin 512) (n : Fin 4096) : EReal :=
  rowOut (fun n => A (ValueIdx.ix3 b c n)) (fun d n => A (ValueIdx.ix3 b d n)) n

/-- The same as an array. -/
def wholeArr (A : (⟨3, ![16, 512, 4096]⟩ : Shape).Idx → EReal) : (⟨3, ![16, 512, 4096]⟩ : Shape).Idx → EReal :=
  fun i => whole A ⟨(i 0).val, (i 0).isLt⟩ ⟨(i 1).val, (i 1).isLt⟩ ⟨(i 2).val, (i 2).isLt⟩

theorem wholeArr_apply (A : (⟨3, ![16, 512, 4096]⟩ : Shape).Idx → EReal) (b : Fin 16) (c : Fin 512) (n : Fin 4096) :
    wholeArr A (ValueIdx.ix3 b c n) = whole A b c n := rfl

end Cert.Spec

end
-- ==== Proof.Payload.lean ====
/-
  The two values the kernel body stores, read at an index over the extended reals.

  The body keeps, across the four row slabs of one batch element, a copy S of the element's 512 × 4096 feature matrix (the
  narrowing to bf16 is the identity on extended reals), and for each slab of 128 rows it stores, for every row q of the
  slab, the row `Spec.rowOut q S`: Gram entries of q against every row of S (a matrix product contracting the 4096 columns),
  the row maximum minus the entries, their softmax, the weights applied to S (a matrix product contracting the 512
  channels), plus q.  The slab computation is cut into stages, each a function of vectors, and each stage that is not
  pointwise is read at an index by one lemma: the two matrix products as sums over the contracted coordinate, the two lane
  reductions as a fold of max and a sum over the row, the column reshape followed by the broadcast along the row as the
  vector's entry.
-/
import proofs.«108836_j19258633356089_1_alg».proof.Proof.Gen.KernelIdeal.Skeleton
import proofs.«108836_j19258633356089_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Payload

open Cert.KernelIdeal Cert.KernelIdeal.Gen Idealize.ShloMosaic Idealize.ShloMosaic.ValueIdx Cert.Spec

/-! ## The stages of the slab computation -/

/-- The Gram slab: rows of A against rows of B, contracting the 4096 columns, into zero. -/
def gramV (A : FVec Ideal S128x4096 .bf16) (B : FVec Ideal S512x4096 .bf16) : FVec Ideal S128x512 .f32 :=
  matmul dot_S128x4096_S512x4096_S128x512_1_1_0_0_n_n none A B (constant S128x512 .f32 0x00000000#32)

/-- The weights applied: rows of W against columns of B, contracting the 512 channels, into zero. -/
def applyV (W : FVec Ideal S128x512 .bf16) (B : FVec Ideal S512x4096 .bf16) : FVec Ideal S128x4096 .f32 :=
  matmul dot_S128x512_S512x4096_S128x4096_1_0_0_1_n_n none W B (constant S128x4096 .f32 0x00000000#32)

/-- Each row's maximum, from −∞. -/
def rowMaxV (x : FVec Ideal S128x512 .f32) : FVec Ideal S128 .f32 :=
  multiReduction .maximumf [1] S128 x 0xFF800000#32 reduces_S128x512_S128 (.inl rfl) rfl

/-- Each row's sum. -/
def rowSumV (x : FVec Ideal S128x512 .f32) : FVec Ideal S128 .f32 :=
  multiReduction .add [1] S128 x 0x00000000#32 reduces_S128x512_S128 (.inl rfl) rfl

/-- One value per row, repeated along the row. -/
def spread (v : FVec Ideal S128 .f32) : FVec Ideal S128x512 .f32 :=
  broadcastTo S128x512 (shapeCast S128x1 v shapeCasts_S128_S128x1) broadcasts_S128x1_S128x512

/-- The row maximum minus the entries. -/
def shiftV (G : FVec Ideal S128x512 .f32) : FVec Ideal S128x512 .f32 := subf (spread (rowMaxV G)) G

/-- The softmax's numerators: the exponential of each entry minus the row maximum (joined with −∞ once more). -/
def softV (Sh : FVec Ideal S128x512 .f32) : FVec Ideal S128x512 .f32 :=
  exp (subf Sh (spread (maximumf (broadcast S128 (Scalar.ofBits .f32 0xFF800000#32)) (rowMaxV Sh))))

/-- Each numerator over its row's sum. -/
def weightV (E : FVec Ideal S128x512 .f32) : FVec Ideal S128x512 .f32 := divf E (spread (rowSumV E))

/-- The slab computation: from the feature matrix S and a slab q8 of 128 of its rows to the slab of output rows. -/
def slab (S : FVec Ideal S512x4096 .bf16) (q8 : FVec Ideal S128x4096 .f32) : FVec Ideal S128x4096 .f32 :=
  addf (applyV (truncf .bf16 (weightV (softV (shiftV (gramV (truncf .bf16 q8 bitsLt_bf16_f32) S)))) bitsLt_bf16_f32) S) q8

/-- The stored output block is the slab computation of the loaded blocks, up to the leading unit axis. -/
theorem pay2_eq (S : FVec Ideal S512x4096 .bf16) (Q : FVec Ideal S1x128x4096 .f32) :
    k0_pay2 (F := Ideal) S Q
      = shapeCast S1x128x4096 (slab S (shapeCast S128x4096 Q shapeCasts_S1x128x4096_S128x4096)) shapeCasts_S128x4096_S1x128x4096 :=
  rfl

/-! ## Each stage read at an index -/

theorem spread_apply (v : FVec Ideal S128 .f32) (r : Fin 128) (d : Fin 512) : spread v (ix2 r d) = v (ix1 r) := by
  unfold spread
  refine (broadcastTo_apply _ broadcasts_S128x1_S128x512 (ix2 r d) (ix2 r (0 : Fin 1)) fun ax => ?_).trans ?_
  · match ax with
    | ⟨0, _⟩ => rfl
    | ⟨1, _⟩ => rfl
  · refine shapeCast_apply v shapeCasts_S128_S128x1 _ _ ?_
    rw [Shape.rowMajor_val_one, Shape.rowMajor_val_two]
    show r.val = r.val * 1 + 0
    omega

/-- The reduced index with the row's coordinate put back. -/
theorem lift_eq (r : Fin 128) (d : Fin 512) : reduces_S128x512_S128.lift (ix1 r) d = ix2 r d :=
  funext fun a => Fin.ext (by
    match a with
    | ⟨0, _⟩ => rfl
    | ⟨1, _⟩ => rfl)

theorem rowMaxV_apply (x : FVec Ideal S128x512 .f32) (r : Fin 128) :
    rowMaxV x (ix1 r) = foldMax fun d => x (ix2 r d) := by
  unfold rowMaxV
  refine (Ideal.multiReduction_maximumf_single x 0xFF800000#32 reduces_S128x512_S128 (.inl rfl) rfl (ix1 r)).trans ?_
  unfold foldMax
  exact congrArg (fun g : Fin 512 → EReal => (Finset.univ : Finset (Fin 512)).fold max negInf g)
    (funext fun d => congrArg x (lift_eq r d))

theorem rowSumV_apply (x : FVec Ideal S128x512 .f32) (r : Fin 128) :
    rowSumV x (ix1 r) = ∑ d : Fin 512, x (ix2 r d) := by
  unfold rowSumV
  refine (Ideal.multiReduction_add_single x 0x00000000#32 reduces_S128x512_S128 (.inl rfl) rfl (ix1 r)).trans ?_
  exact Finset.sum_congr rfl fun d _ => congrArg x (lift_eq r d)

/-- The operand indices of the two matrix products, on the axes that are not contracted. -/
theorem gram_lhs0 (i : S128x512.Idx) (q : dot_S128x4096_S512x4096_S128x512_1_1_0_0_n_n.contr.Idx) : (dot_S128x4096_S512x4096_S128x512_1_1_0_0_n_n.lhsIdx i q 0).val = (i 0).val := by
  unfold DotDims.lhsIdx
  rw [dif_neg (show ¬(0 : Fin S128x4096.rank) ∈ dot_S128x4096_S512x4096_S128x512_1_1_0_0_n_n.lhsBatch by decide),
    dif_pos (show (0 : Fin S128x4096.rank) ∈ dot_S128x4096_S512x4096_S128x512_1_1_0_0_n_n.lhsNonContracting by decide)]
  rfl
theorem gram_rhs0 (i : S128x512.Idx) (q : dot_S128x4096_S512x4096_S128x512_1_1_0_0_n_n.contr.Idx) : (dot_S128x4096_S512x4096_S128x512_1_1_0_0_n_n.rhsIdx i q 0).val = (i 1).val := by
  unfold DotDims.rhsIdx
  rw [dif_neg (show ¬(0 : Fin S512x4096.rank) ∈ dot_S128x4096_S512x4096_S128x512_1_1_0_0_n_n.rhsBatch by decide),
    dif_pos (show (0 : Fin S512x4096.rank) ∈ dot_S128x4096_S512x4096_S128x512_1_1_0_0_n_n.rhsNonContracting by decide)]
  rfl
theorem apply_lhs0 (i : S128x4096.Idx) (q : dot_S128x512_S512x4096_S128x4096_1_0_0_1_n_n.contr.Idx) : (dot_S128x512_S512x4096_S128x4096_1_0_0_1_n_n.lhsIdx i q 0).val = (i 0).val := by
  unfold DotDims.lhsIdx
  rw [dif_neg (show ¬(0 : Fin S128x512.rank) ∈ dot_S128x512_S512x4096_S128x4096_1_0_0_1_n_n.lhsBatch by decide),
    dif_pos (show (0 : Fin S128x512.rank) ∈ dot_S128x512_S512x4096_S128x4096_1_0_0_1_n_n.lhsNonContracting by decide)]
  rfl
theorem apply_rhs1 (i : S128x4096.Idx) (q : dot_S128x512_S512x4096_S128x4096_1_0_0_1_n_n.contr.Idx) : (dot_S128x512_S512x4096_S128x4096_1_0_0_1_n_n.rhsIdx i q 1).val = (i 1).val := by
  unfold DotDims.rhsIdx
  rw [dif_neg (show ¬(1 : Fin S512x4096.rank) ∈ dot_S128x512_S512x4096_S128x4096_1_0_0_1_n_n.rhsBatch by decide),
    dif_pos (show (1 : Fin S512x4096.rank) ∈ dot_S128x512_S512x4096_S128x4096_1_0_0_1_n_n.rhsNonContracting by decide)]
  rfl

theorem gramV_apply (A : FVec Ideal S128x4096 .bf16) (B : FVec Ideal S512x4096 .bf16) (r : Fin 128) (d : Fin 512) :
    gramV A B (ix2 r d) = ∑ n : Fin 4096, A (ix2 r n) * B (ix2 d n) := by
  unfold gramV
  simp only [matmul]
  rw [Ideal.matmul_constant_zero_apply,
    ← Equiv.sum_comp (contrEquiv1 dot_S128x4096_S512x4096_S128x512_1_1_0_0_n_n 4096 rfl rfl).symm]
  refine Finset.sum_congr rfl fun k _ => ?_
  have hk := contrEquiv1_symm_val dot_S128x4096_S512x4096_S128x512_1_1_0_0_n_n 4096 rfl rfl k
  have el : dot_S128x4096_S512x4096_S128x512_1_1_0_0_n_n.lhsIdx (ix2 r d)
      ((contrEquiv1 dot_S128x4096_S512x4096_S128x512_1_1_0_0_n_n 4096 rfl rfl).symm k) = ix2 r k :=
    funext fun a => Fin.ext (by
      match a with
      | ⟨0, _⟩ => exact gram_lhs0 _ _
      | ⟨1, _⟩ => exact (dot_S128x4096_S512x4096_S128x512_1_1_0_0_n_n.lhsIdx_val_of_single rfl _ _).trans hk)
  have er : dot_S128x4096_S512x4096_S128x512_1_1_0_0_n_n.rhsIdx (ix2 r d)
      ((contrEquiv1 dot_S128x4096_S512x4096_S128x512_1_1_0_0_n_n 4096 rfl rfl).symm k) = ix2 d k :=
    funext fun a => Fin.ext (by
      match a with
      | ⟨0, _⟩ => exact gram_rhs0 _ _
      | ⟨1, _⟩ => exact (dot_S128x4096_S512x4096_S128x512_1_1_0_0_n_n.rhsIdx_val_of_single rfl _ _).trans hk)
  rw [el, er]

theorem applyV_apply (W : FVec Ideal S128x512 .bf16) (B : FVec Ideal S512x4096 .bf16) (r : Fin 128) (n : Fin 4096) :
    applyV W B (ix2 r n) = ∑ d : Fin 512, W (ix2 r d) * B (ix2 d n) := by
  unfold applyV
  simp only [matmul]
  rw [Ideal.matmul_constant_zero_apply,
    ← Equiv.sum_comp (contrEquiv1 dot_S128x512_S512x4096_S128x4096_1_0_0_1_n_n 512 rfl rfl).symm]
  refine Finset.sum_congr rfl fun k _ => ?_
  have hk := contrEquiv1_symm_val dot_S128x512_S512x4096_S128x4096_1_0_0_1_n_n 512 rfl rfl k
  have el : dot_S128x512_S512x4096_S128x4096_1_0_0_1_n_n.lhsIdx (ix2 r n)
      ((contrEquiv1 dot_S128x512_S512x4096_S128x4096_1_0_0_1_n_n 512 rfl rfl).symm k) = ix2 r k :=
    funext fun a => Fin.ext (by
      match a with
      | ⟨0, _⟩ => exact apply_lhs0 _ _
      | ⟨1, _⟩ => exact (dot_S128x512_S512x4096_S128x4096_1_0_0_1_n_n.lhsIdx_val_of_single rfl _ _).trans hk)
  have er : dot_S128x512_S512x4096_S128x4096_1_0_0_1_n_n.rhsIdx (ix2 r n)
      ((contrEquiv1 dot_S128x512_S512x4096_S128x4096_1_0_0_1_n_n 512 rfl rfl).symm k) = ix2 k n :=
    funext fun a => Fin.ext (by
      match a with
      | ⟨0, _⟩ => exact (dot_S128x512_S512x4096_S128x4096_1_0_0_1_n_n.rhsIdx_val_of_single rfl _ _).trans hk
      | ⟨1, _⟩ => exact apply_rhs1 _ _)
  rw [el, er]

/-! ## The slab at an index is the row formula -/

/-- The shifted entries of a row whose Gram entries are g. -/
theorem shiftV_apply (G : FVec Ideal S128x512 .f32) (g : Fin 512 → EReal) (r : Fin 128) (hG : ∀ d, G (ix2 r d) = g d)
    (d : Fin 512) : shiftV G (ix2 r d) = foldMax g - g d := by
  unfold shiftV
  rw [subf_apply, spread_apply, rowMaxV_apply, hG d, (funext hG : (fun d => G (ix2 r d)) = g)]

/-- The numerators of a row whose shifted entries are s. -/
theorem softV_apply (Sh : FVec Ideal S128x512 .f32) (s : Fin 512 → EReal) (r : Fin 128) (hS : ∀ d, Sh (ix2 r d) = s d)
    (d : Fin 512) : softV Sh (ix2 r d) = Ideal.exp (s d - max negInf (foldMax s)) := by
  unfold softV
  show Ideal.exp (Sh (ix2 r d)
    - spread (maximumf (broadcast S128 (Scalar.ofBits .f32 0xFF800000#32)) (rowMaxV Sh)) (ix2 r d)) = _
  rw [spread_apply, maximumf_apply, rowMaxV_apply, hS d, (funext hS : (fun d => Sh (ix2 r d)) = s)]
  rfl

/-- The weights of a row whose numerators are e. -/
theorem weightV_apply (E : FVec Ideal S128x512 .f32) (e : Fin 512 → EReal) (r : Fin 128) (hE : ∀ d, E (ix2 r d) = e d)
    (d : Fin 512) : weightV E (ix2 r d) = Ideal.div (e d) (∑ d' : Fin 512, e d') := by
  unfold weightV
  rw [divf_apply, spread_apply, rowSumV_apply, hE d]
  exact congrArg (Ideal.div (e d)) (Finset.sum_congr rfl fun d' _ => hE d')

theorem slab_apply (S : FVec Ideal S512x4096 .bf16) (q8 : FVec Ideal S128x4096 .f32) (r : Fin 128) (n : Fin 4096) :
    slab S q8 (ix2 r n) = rowOut (fun n => q8 (ix2 r n)) (fun d n => S (ix2 d n)) n := by
  have hG : ∀ d, gramV (truncf .bf16 q8 bitsLt_bf16_f32) S (ix2 r d)
      = gramRow (fun n => q8 (ix2 r n)) (fun d n => S (ix2 d n)) d := fun d => gramV_apply _ _ r d
  have hS : ∀ d, shiftV (gramV (truncf .bf16 q8 bitsLt_bf16_f32) S) (ix2 r d)
      = shifted (fun n => q8 (ix2 r n)) (fun d n => S (ix2 d n)) d := fun d => shiftV_apply _ _ r hG d
  have hE : ∀ d, softV (shiftV (gramV (truncf .bf16 q8 bitsLt_bf16_f32) S)) (ix2 r d)
      = expo (fun n => q8 (ix2 r n)) (fun d n => S (ix2 d n)) d := fun d => softV_apply _ _ r hS d
  have hW : ∀ d, weightV (softV (shiftV (gramV (truncf .bf16 q8 bitsLt_bf16_f32) S))) (ix2 r d)
      = attn (fun n => q8 (ix2 r n)) (fun d n => S (ix2 d n)) d := fun d => weightV_apply _ _ r hE d
  unfold slab
  rw [addf_apply, applyV_apply]
  unfold rowOut
  exact congrArg (· + q8 (ix2 r n)) (Finset.sum_congr rfl fun d _ => congrArg (· * S (ix2 d n)) (hW d))

/-- The stored scratch value is the loaded block without its leading unit axis. -/
theorem pay1_apply (x : FVec Ideal S1x512x4096 .f32) (d : Fin 512) (n : Fin 4096) :
    k0_pay1 (F := Ideal) x (ix2 d n) = x (ix3 (0 : Fin 1) d n) := by
  unfold k0_pay1
  rw [shapeCast_self]
  exact shapeCast_1ab_ab_apply x shapeCasts_S1x512x4096_S512x4096 d n

/-- The stored output block at an index: the row formula of the loaded row against the scratch's matrix. -/
theorem pay2_apply (S : FVec Ideal S512x4096 .bf16) (Q : FVec Ideal S1x128x4096 .f32) (z : Fin 1) (r : Fin 128)
    (n : Fin 4096) :
    k0_pay2 (F := Ideal) S Q (ix3 z r n) = rowOut (fun n => Q (ix3 (0 : Fin 1) r n)) (fun d n => S (ix2 d n)) n := by
  rw [pay2_eq, shapeCast_ab_1ab_apply, slab_apply]
  exact congrArg (fun q => rowOut q (fun d n => S (ix2 d n)) n)
    (funext fun n' => shapeCast_1ab_ab_apply Q shapeCasts_S1x128x4096_S128x4096 r n')

end Cert.Payload

end
-- ==== Proof.LibLoads.lean ====
/-
  General lemmas about loads through unit-stride rectangles.

  A staging buffer that a body fills store by store is read back as the list of its stores; a load through the
  rectangle of offsets off and sizes size reads, at position j, what the stores left at index off + j. A load of the
  whole of an untouched staged buffer reads its contents. The all-zero offset vectors of ranks one to four are the
  constant zero function.
-/
import Idealize.ShloMosaic.Lib.Pipeline.Value
import Idealize.ShloMosaic.Lib.Pipeline.Frame
import Idealize.ShloMosaic.Lib.WritesUnit

noncomputable section

namespace Cert.LibLoads

open Idealize.ShloMosaic

/-- The rank-one zero offsets. -/
theorem zeros1 : (![0] : Fin 1 → ℕ) = fun _ => 0 := funext fun a => by
  match a with
  | ⟨0, _⟩ => rfl

/-- The rank-two zero offsets. -/
theorem zeros2 : (![0, 0] : Fin 2 → ℕ) = fun _ => 0 := funext fun a => by
  match a with
  | ⟨0, _⟩ => rfl
  | ⟨1, _⟩ => rfl

/-- The rank-three zero offsets. -/
theorem zeros3 : (![0, 0, 0] : Fin 3 → ℕ) = fun _ => 0 := funext fun a => by
  match a with
  | ⟨0, _⟩ => rfl
  | ⟨1, _⟩ => rfl
  | ⟨2, _⟩ => rfl

/-- The rank-four zero offsets. -/
theorem zeros4 : (![0, 0, 0, 0] : Fin 4 → ℕ) = fun _ => 0 := funext fun a => by
  match a with
  | ⟨0, _⟩ => rfl
  | ⟨1, _⟩ => rfl
  | ⟨2, _⟩ => rfl
  | ⟨3, _⟩ => rfl

variable {Val : EltTy → Type} {sig : RefSig} {κ : Kind} {sp : Space} {s : Shape} {e : EltTy}

/-- A load through a unit-stride rectangle of what a list of stores left, at position j: the contents the stores left
    at the index y whose coordinates are the rectangle's offsets plus j's. -/
theorem readCov_unit_apply [∀ e, Nonempty (Val e)] (v : View sig κ sp s e) (L : List (View.Piece Val s e))
    (off size : Fin s.rank → ℕ) (inb : ∀ a, off a + size a ≤ s.size a)
    (j : (Rect.unit off size inb).shape.Idx) (y : s.Idx) (hy : ∀ a, (y a).val = off a + (j a).val) :
    v.readCov L (Rect.unit off size inb).toLoadRect j = v.read Val (v.writes Val v.junk L) y := by
  have h : (Rect.unit off size inb).emb j = y := funext fun a => Fin.ext (by
    show off a + 1 * (j a).val = (y a).val
    rw [hy a, Nat.one_mul])
  rw [← h]
  rfl

/-- A load of the whole of a staged buffer that holds x reads x. -/
theorem readAt_whole (mr : Memref sig κ sp s e) (hm : mr.IsWhole) (off : Fin s.rank → ℕ) (hz : off = fun _ => 0)
    (inb : ∀ a, off a + s.size a ≤ s.size a) (x : s.Idx → Val e) :
    View.readAt Val mr.view (Rect.unit off s.size inb).toLoadRect (hm.unread x) = x := by
  rw [View.readAt_eq_ld, hm.read_unread]
  exact View.ld_unit_zero hz inb x

end Cert.LibLoads

end
-- ==== Proof.Pieces.lean ====
/-
  What one run of the body leaves in the output block and in the carried scratch, as values.

  The body has two cases.  At the first row slab of a batch element it copies the element's whole 512 × 4096 block into the
  scratch (narrowed to bf16) and then reads the scratch back; at the other three slabs it reads the scratch as the slab
  before left it.  In both cases it then loads the slab's 128 rows out of the same block, at the row offset 128 · (slab
  number), and stores ONE value over the whole output block: the slab computation of the scratch's matrix and those rows.
  So the output block after a point is that value, with the scratch's contents either this point's copy or what was
  carried, and the scratch after a point is either this point's copy or unchanged.
-/
import proofs.«108836_j19258633356089_1_alg».proof.Proof.Gen.KernelIdeal.Frame
import proofs.«108836_j19258633356089_1_alg».proof.Proof.LibLoads
import Idealize.ShloMosaic.Lib.Pipeline.Value
import Idealize.ShloMosaic.Lib.Tactic

set_option maxRecDepth 16384

noncomputable section

open Idealize.ShloMosaic Idealize.ShloMosaic.TcCoe Idealize.SL.Sem

namespace Cert.Pieces

open Cert.KernelIdeal Cert.KernelIdeal.Gen Cert.LibLoads

variable {F : FTy → Type} [FloatOps F]

/-- The slab's 128 rows, loaded out of the batch element's block at the point's row offset. -/
def rowsAt (i : grid0.Coords) (x0 : Vec F S1x512x4096 .f32) : Vec F S1x128x4096 .f32 :=
  View.ld x0 (Rect.unit (s := S1x512x4096) (k0_off1 i) S1x128x4096.size (k0_off1_inb i))

/-- At a batch element's first slab the scratch ends holding the copy of the element's block. -/
theorem scratch_first (c : Dev nD) (i : grid0.Coords) (arg2 : Memref sig .tc .vmem S1x512x4096 .f32) (harg2 : arg2.IsWhole)
    (arg3 : Memref sig .tc .vmem S1x128x4096 .f32) (harg3 : arg3.IsWhole) (arg4 : Memref sig .tc .vmem S512x4096 .bf16)
    (harg4 : arg4.IsWhole) (hc0 : cond0_0 i) (x0 : Vec F S1x512x4096 .f32) :
    sout0_A_0 c i arg2 harg2 arg3 harg3 arg4 harg4 hc0 x0 = k0_pay1 x0 := by
  unfold sout0_A_0
  rw [View.read_writes_eq_canon _ _ _ (scover0_A_0 c i arg2 harg2 arg3 harg3 arg4 harg4 hc0 x0)]
  unfold kernelRun0_A
  dsimp only
  sl_unfold_words
  rw [View.canon_unit_zero (S := S512x4096) zeros2]
  simp only [View.readAt_eq_ld, harg2.read_unread, View.ld_unit_zero (S := S1x512x4096) zeros3]

/-- At a batch element's first slab the output block ends holding the slab computation of the fresh copy and the slab's
    rows. -/
theorem out_first (c : Dev nD) (i : grid0.Coords) (arg2 : Memref sig .tc .vmem S1x512x4096 .f32) (harg2 : arg2.IsWhole)
    (arg3 : Memref sig .tc .vmem S1x128x4096 .f32) (harg3 : arg3.IsWhole) (arg4 : Memref sig .tc .vmem S512x4096 .bf16)
    (harg4 : arg4.IsWhole) (hc0 : cond0_0 i) (x0 : Vec F S1x512x4096 .f32) :
    out0_A_1 c i arg2 harg2 arg3 harg3 arg4 harg4 hc0 x0 = k0_pay2 (k0_pay1 x0) (rowsAt i x0) := by
  unfold out0_A_1
  rw [View.read_writes_eq_canon _ _ _ (cover0_A_1 c i arg2 harg2 arg3 harg3 arg4 harg4 hc0 x0)]
  unfold kernelRun0_A
  dsimp only
  sl_unfold_words
  rw [View.canon_unit_zero (S := S1x128x4096) zeros3, View.readCov_unit_zero (S := S512x4096) _ zeros2]
  simp only [View.readAt_eq_ld, harg2.read_unread, View.ld_unit_zero (S := S1x512x4096) zeros3]
  rfl

/-- At the other slabs the output block ends holding the slab computation of the carried scratch and the slab's rows. -/
theorem out_later (c : Dev nD) (i : grid0.Coords) (arg2 : Memref sig .tc .vmem S1x512x4096 .f32) (harg2 : arg2.IsWhole)
    (arg3 : Memref sig .tc .vmem S1x128x4096 .f32) (harg3 : arg3.IsWhole) (arg4 : Memref sig .tc .vmem S512x4096 .bf16)
    (harg4 : arg4.IsWhole) (hc0 : ¬cond0_0 i) (x0 : Vec F S1x512x4096 .f32) (xs0 : Vec F S512x4096 .bf16) :
    out0_B_1 c i arg2 harg2 arg3 harg3 arg4 harg4 hc0 x0 xs0 = k0_pay2 xs0 (rowsAt i x0) := by
  unfold out0_B_1
  rw [View.read_writes_eq_canon _ _ _ (cover0_B_1 c i arg2 harg2 arg3 harg3 arg4 harg4 hc0 x0 xs0)]
  unfold kernelRun0_B
  dsimp only
  rw [View.canon_unit_zero (S := S1x128x4096) zeros3]
  simp only [View.readAt_eq_ld, harg2.read_unread, harg4.read_unread, View.ld_unit_zero (S := S512x4096) zeros2]
  rfl

end Cert.Pieces

end
-- ==== Proof.KernelValue.lean ====
/-
  What the kernel's result holds after the run, over the extended reals.

  The grid has 64 points: point t works on batch element t / 4 and on the slab of rows 128 · (t % 4) … + 127.  The input
  window's block at t is the whole feature matrix of batch element t / 4; the output window's block at t is that slab of
  the element's output.  The scratch is written at the first slab of each batch element and carried over the other
  three, so by induction on the point it holds, after point t, the feature matrix of batch element t / 4.  Hence every
  point stores the slab computation of its element's matrix and its slab's rows, which is the row formula row by row; the
  64 output blocks tile the array [16, 512, 4096], so the array ends holding `Spec.wholeArr` of the feature array, and the
  reshape after the region carries it to [16, 512, 64, 64].  The feature array itself is the reshape of the argument.
-/
import proofs.«108836_j19258633356089_1_alg».proof.Proof.Gen.KernelIdeal.Frame
import proofs.«108836_j19258633356089_1_alg».proof.Proof.Spec
import proofs.«108836_j19258633356089_1_alg».proof.Proof.Payload
import proofs.«108836_j19258633356089_1_alg».proof.Proof.Pieces
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelValue

open Cert.KernelIdeal Cert.KernelIdeal.Gen Cert.Pieces Cert.Payload Cert.Spec Idealize.ShloMosaic.ValueIdx

variable (m : (ℓ : Loc nD τ sig) → Buf (Elt Ideal) ℓ) (ρ : Dev nD → PrngReg)

/-! ## The grid: which batch element and which slab a point works on -/

/-- The windows' block indices and the slab coordinate at every point, decided once over the grid. -/
theorem idx_facts : ∀ t : Fin cfg0.N, win0_0.index t (0 : Fin 3) = t.val / 4 ∧ win0_0.index t (1 : Fin 3) = 0
    ∧ win0_0.index t (2 : Fin 3) = 0 ∧ win0_1.index t (0 : Fin 3) = t.val / 4 ∧ win0_1.index t (1 : Fin 3) = t.val % 4
    ∧ win0_1.index t (2 : Fin 3) = 0 ∧ ((grid0.coords t) 1).val = t.val % 4 :=
  (by decide +kernel : ∀ t : Fin grid0.N, _)

/-- The batch element of point number n. -/
def batchOf (n : ℕ) : Fin 16 := ⟨n / 4 % 16, Nat.mod_lt _ (by decide)⟩

/-- One batch element's feature matrix, out of the feature array. -/
def featOf (A : S16x512x4096.Idx → EReal) (b : Fin 16) : FVec Ideal S512x4096 .bf16 :=
  fun y => A (ix3 b ⟨(y 0).val, (y 0).isLt⟩ ⟨(y 1).val, (y 1).isLt⟩)

/-! ## Reading the blocks -/

/-- The input block at point t is batch element t / 4 of the feature array. -/
theorem iblk_apply (c : Dev nD) (t : Fin cfg0.N) (z : Fin 1) (d : Fin 512) (n : Fin 4096) (b : Fin 16)
    (hb : b.val = t.val / 4) :
    (iblk m c 0 t : Vec Ideal S1x512x4096 .f32) (ix3 z d n) = V m c main_v0 (ix3 b d n) := by
  obtain ⟨e0, e1, e2, -⟩ := idx_facts t
  unfold iblk
  rw [View.read_apply]
  show V m c main_v0 _ = V m c main_v0 _
  refine congrArg (V m c main_v0) (funext fun a => Fin.ext ?_)
  have hz : z.val = 0 := by omega
  match a with
  | ⟨0, _⟩ => show win0_0.index t (0 : Fin 3) * 1 + 1 * z.val = b.val; omega
  | ⟨1, _⟩ => show win0_0.index t (1 : Fin 3) * 512 + 1 * d.val = d.val; omega
  | ⟨2, _⟩ => show win0_0.index t (2 : Fin 3) * 4096 + 1 * n.val = n.val; omega

/-- The slab's rows, loaded at the row offset 128 · (slab number), are those rows of the block. -/
theorem rowsAt_apply (i : grid0.Coords) (x0 : Vec Ideal S1x512x4096 .f32) (z : Fin 1) (r : Fin 128) (n : Fin 4096)
    (q : Fin 512) (hq : q.val = 128 * (i 1).val + r.val) :
    rowsAt i x0 (ix3 z r n) = x0 (ix3 (0 : Fin 1) q n) := by
  unfold rowsAt
  show x0 ((Rect.unit (s := S1x512x4096) (k0_off1 i) S1x128x4096.size (k0_off1_inb i)).emb (ix3 z r n)) = _
  refine congrArg x0 (funext fun a => Fin.ext ?_)
  have e := k0_off1_eq i
  have hz : z.val = 0 := by omega
  match a with
  | ⟨0, _⟩ => show k0_off1 i 0 + 1 * z.val = 0; rw [e]; show 0 + 1 * z.val = 0; omega
  | ⟨1, _⟩ => show k0_off1 i 1 + 1 * r.val = q.val; rw [e]; show 128 * (i 1).val + 1 * r.val = q.val; omega
  | ⟨2, _⟩ => show k0_off1 i 2 + 1 * n.val = n.val; rw [e]; show 0 + 1 * n.val = n.val; omega

/-- The copy the first slab makes of the input block is the batch element's feature matrix. -/
theorem copy_eq (c : Dev nD) (t : Fin cfg0.N) :
    k0_pay1 (F := Ideal) (iblk m c 0 t) = featOf (V m c main_v0) (batchOf t.val) := by
  have hN : cfg0.N = 64 := N_0
  have ht := t.isLt
  funext y
  obtain ⟨d, n, rfl⟩ : ∃ (d : Fin 512) (n : Fin 4096), y = ix2 d n := ⟨y 0, y 1, eq_ix2 y⟩
  refine (pay1_apply (iblk m c 0 t) d n).trans ?_
  exact iblk_apply m c t 0 d n (batchOf t.val) (by show t.val / 4 % 16 = t.val / 4; omega)

/-! ## The carried scratch and the output block, point by point -/

/-- At the first slab of a batch element the scratch ends holding the element's feature matrix. -/
theorem scratch_first_pt (c : Dev nD) (t : Fin cfg0.N) (h0 : t.val % 4 = 0) :
    (outsAt0 m c t.val t.isLt).2 = featOf (V m c main_v0) (batchOf t.val) := by
  rw [outsAt0_A m c t h0]
  dsimp only
  rw [scratch_first (F := Ideal) c (grid0.coords t) (ms0_0 t) (hs0_0 t) (ms0_1 t) (hs0_1 t) scM0_0
    (Memref.isWhole_whole _) ((hcond0_0 t).mpr h0) (iblk m c 0 t)]
  exact copy_eq m c t

/-- At the other slabs the scratch is what the point before left. -/
theorem scratch_later_pt (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  dsimp only [sout0_B_0]

/-- After point n the scratch holds the feature matrix of batch element n / 4: copied at the element's first slab, carried
    over the other three. -/
theorem scratch_eq (c : Dev nD) : ∀ (n : ℕ) (h : n < cfg0.N),
    (outsAt0 m c n h).2 = featOf (V m c main_v0) (batchOf n)
  | 0, h => scratch_first_pt m c ⟨0, h⟩ rfl
  | n + 1, h => by
    by_cases h0 : (n + 1) % 4 = 0
    · exact scratch_first_pt m c ⟨n + 1, h⟩ h0
    · refine (scratch_later_pt m c ⟨n + 1, h⟩ h0).trans ?_
      show (outsAt0 m c n _).2 = _
      rw [scratch_eq c n]
      refine congrArg (featOf (V m c main_v0)) (Fin.ext ?_)
      show n / 4 % 16 = (n + 1) / 4 % 16
      omega

/-- After point t the output block holds the slab computation of the scratch's matrix and the slab's rows. -/
theorem out_eq (c : Dev nD) (t : Fin cfg0.N) :
    (outsAt0 m c t.val t.isLt).1
      = k0_pay2 (F := Ideal) (featOf (V m c main_v0) (batchOf t.val)) (rowsAt (grid0.coords t) (iblk m c 0 t)) := by
  by_cases h0 : t.val % 4 = 0
  · rw [outsAt0_A m c t h0]
    dsimp only
    rw [out_first (F := Ideal) c (grid0.coords t) (ms0_0 t) (hs0_0 t) (ms0_1 t) (hs0_1 t) scM0_0
      (Memref.isWhole_whole _) ((hcond0_0 t).mpr h0) (iblk m c 0 t), copy_eq]
  · rw [outsAt0_B m c t h0]
    dsimp only
    rw [out_later (F := Ideal) c (grid0.coords t) (ms0_0 t) (hs0_0 t) (ms0_1 t) (hs0_1 t) scM0_0
      (Memref.isWhole_whole _) (fun h => h0 ((hcond0_0 t).mp h)) (iblk m c 0 t)
      (outsAt0 m c (t.val - 1) (Nat.lt_of_le_of_lt (Nat.sub_le _ _) t.isLt)).2,
      scratch_eq m c (t.val - 1)]
    refine congrArg (fun b => k0_pay2 (F := Ideal) (featOf (V m c main_v0) b) (rowsAt (grid0.coords t) (iblk m c 0 t)))
      (Fin.ext ?_)
    show (t.val - 1) / 4 % 16 = t.val / 4 % 16
    omega

/-! ## From the blocks to the array -/

/-- What point t writes back is block t of `wholeArr` of the feature array. -/
theorem flushed_eq (c : Dev nD) (t : Fin cfg0.N) :
    (dats m 0 c).flushed 1 t = ((cfg0.win 1).blk t).view.read (Elt Ideal) (wholeArr (V m c main_v0)) := by
  show (cfg0.win 1).cut (grid0.coords t) ((dats m 0 c).after 1 t) = _
  rw [after0_1, out_eq]
  obtain ⟨e0, e1, e2, e3, e4, e5, e6⟩ := idx_facts t
  have hN : cfg0.N = 64 := N_0
  have ht := t.isLt
  funext j
  obtain ⟨z, r, n, rfl⟩ : ∃ (z : Fin 1) (r : Fin 128) (n : Fin 4096), j = ix3 z r n := ⟨j 0, j 1, j 2, eq_ix3 j⟩
  have hz : z.val = 0 := by omega
  have hr := r.isLt
  show k0_pay2 (F := Ideal) (featOf (V m c main_v0) (batchOf t.val)) (rowsAt (grid0.coords t) (iblk m c 0 t)) (ix3 z r n)
    = wholeArr (V m c main_v0) (((cfg0.win 1).blk t).view.emb (ix3 z r n))
  have hemb : ((cfg0.win 1).blk t).view.emb (ix3 z r n)
      = ix3 (batchOf t.val) (⟨128 * (t.val % 4) + r.val, by omega⟩ : Fin 512) n :=
    funext fun a => Fin.ext (by
      match a with
      | ⟨0, _⟩ => show win0_1.index t (0 : Fin 3) * 1 + 1 * z.val = t.val / 4 % 16; omega
      | ⟨1, _⟩ => show win0_1.index t (1 : Fin 3) * 128 + 1 * r.val = 128 * (t.val % 4) + r.val; omega
      | ⟨2, _⟩ => show win0_1.index t (2 : Fin 3) * 4096 + 1 * n.val = n.val; omega)
  rw [hemb, wholeArr_apply]
  refine (pay2_apply _ _ z r n).trans ?_
  unfold whole
  have hq : ∀ n' : Fin 4096, rowsAt (grid0.coords t) (iblk m c 0 t) (ix3 (0 : Fin 1) r n')
      = V m c main_v0 (ix3 (batchOf t.val) (⟨128 * (t.val % 4) + r.val, by omega⟩ : Fin 512) n') := fun n' =>
    (rowsAt_apply (grid0.coords t) (iblk m c 0 t) 0 r n' ⟨128 * (t.val % 4) + r.val, by omega⟩
      (by show 128 * (t.val % 4) + r.val = 128 * ((grid0.coords t) 1).val + r.val; rw [e6])).trans
      (iblk_apply m c t 0 _ n' (batchOf t.val) (by show t.val / 4 % 16 = t.val / 4; omega))
  rw [funext hq]
  rfl

/-- An index of the array is in point t's block iff each coordinate is in the block's range on its axis. -/
theorem mem_blk (t : Fin cfg0.N) (i : S16x512x4096.Idx) :
    i ∈ ((cfg0.win 1).blk t).view.set ↔ ∀ a : Fin 3, win0_1.index t a * S1x128x4096.size a ≤ (i a).val
      ∧ (i a).val < win0_1.index t a * S1x128x4096.size a + S1x128x4096.size a := by
  show i ∈ ((View.whole main_v1).slice (win0_1.rect t)).set ↔ _
  rw [View.set_slice_whole, Rect.mem_set_unit]
  exact Iff.rfl

/-- The 64 output blocks tile the array: row c of batch element b is in the block of point 4 · b + c / 128. -/
theorem cover (i : S16x512x4096.Idx) :
    ∃ t : Fin cfg0.N, (cfg0.win 1).flush t = true ∧ i ∈ ((cfg0.win 1).blk t).view.set := by
  have hN : cfg0.N = 64 := N_0
  have h0 : (i 0).val < 16 := (i 0).isLt
  have h1 : (i 1).val < 512 := (i 1).isLt
  have h2 : (i 2).val < 4096 := (i 2).isLt
  have hlt : (i 0).val * 4 + (i 1).val / 128 < cfg0.N := by rw [hN]; omega
  obtain ⟨-, -, -, e3, e4, e5, -⟩ := idx_facts ⟨(i 0).val * 4 + (i 1).val / 128, hlt⟩
  have e3' : win0_1.index ⟨(i 0).val * 4 + (i 1).val / 128, hlt⟩ (0 : Fin 3) = ((i 0).val * 4 + (i 1).val / 128) / 4 := e3
  have e4' : win0_1.index ⟨(i 0).val * 4 + (i 1).val / 128, hlt⟩ (1 : Fin 3) = ((i 0).val * 4 + (i 1).val / 128) % 4 := e4
  refine ⟨⟨(i 0).val * 4 + (i 1).val / 128, hlt⟩, flush0_1 _, ?_⟩
  rw [mem_blk]
  intro a
  match a with
  | ⟨0, _⟩ =>
    show win0_1.index _ (0 : Fin 3) * 1 ≤ (i 0).val ∧ (i 0).val < win0_1.index _ (0 : Fin 3) * 1 + 1
    rw [e3']; omega
  | ⟨1, _⟩ =>
    show win0_1.index _ (1 : Fin 3) * 128 ≤ (i 1).val ∧ (i 1).val < win0_1.index _ (1 : Fin 3) * 128 + 128
    rw [e4']; omega
  | ⟨2, _⟩ =>
    show win0_1.index _ (2 : Fin 3) * 4096 ≤ (i 2).val ∧ (i 2).val < win0_1.index _ (2 : Fin 3) * 4096 + 4096
    rw [e5]; omega

/-- So the region's result array ends holding `wholeArr` of the feature array. -/
theorem final (c : Dev nD) : (dats m 0 c).arrAt 1 cfg0.N = wholeArr (V m c main_v0) :=
  (dats m 0 c).arrAt_eq_of_cover 1 (wholeArr (V m c main_v0)) (fun t _ => flushed_eq m c t) cover

/-! ## The host operations around the region, and the run -/

/-- The feature array the region finds is the reshape of the argument. -/
theorem feat_eq (c : Dev nD) : (V m c main_v0 : S16x512x4096.Idx → EReal)
    = shapeCast S16x512x4096 (m ((c : Thread nD τ).loc main_arg0)) shapeCasts_S16x512x64x64_S16x512x4096 := by
  show StableHlo.after hostOps0 (fun b => m (c, b)) (Proc.devRef .tc main_v0) = _
  after_results
  rfl

/-- The program's result as a function of the argument: the row formula of the reshaped argument, reshaped back. -/
def result (x : S16x512x64x64.Idx → EReal) : S16x512x64x64.Idx → EReal :=
  shapeCast S16x512x64x64 (wholeArr (shapeCast S16x512x4096 x shapeCasts_S16x512x64x64_S16x512x4096))
    shapeCasts_S16x512x4096_S16x512x64x64

/-- The reshape after the region reads the region's result array. -/
theorem tail_eq (c : Dev nD) :
    Pipeline.afterTail₀ cfgs (dats m) 0 (V0 m) [hostOps1] c main_v2 = result (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = wholeArr (V m c main_v0) :=
    (Pipeline.withArrays_arr spec0 launch0.win.arr_inj c _ _ 1).trans (final m c)
  rw [e, feat_eq]
  rfl

/-- THE KERNEL'S RUN, READ: every weakly fair execution terminates with the result at `result` of the argument and the
    argument unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans (tail_eq m c),
      ((h c).2 main_arg0 (Pipeline.mem_restRefs_of main_arg0 (by decide) (by decide))).trans
        (W_main_arg0 m (dats m) c)⟩)
    (run_main m ρ)

end Cert.KernelValue

end
-- ==== Proof.RefValue.lean ====
/-
  The reference's result is the same function of the argument.

  The reference reshapes the argument to the feature array A = [16, 512, 4096] and works on whole arrays: the batched Gram
  product A · Aᵀ, its maximum along the last axis (keepdims) minus it, the softmax of that along the last axis, the batched
  product with A, the reshape back and the residual sum with the argument.  Read at batch element b and channel c, with
  q the row (b, c) of A and S the matrix of batch element b, each stage is the matching stage of `Spec.rowOut q S`: the
  Gram entries `gramRow`, the two maxima folds of max from the word of −∞, the exponentials `expo`, their sum from the word
  of zero, the quotients `attn`, and the last product the sum over the channels.  The residual term is the argument at
  the index, which is A at the reshaped index because reshaping there and back is the identity.
-/
import proofs.«108836_j19258633356089_1_alg».proof.Proof.Gen.ReferenceIdeal.Read
import proofs.«108836_j19258633356089_1_alg».proof.Proof.Spec
import Idealize.ShloMosaic.Lib.ValueIdx
import Idealize.ShloMosaic.Lib.Pipeline.Value
import Idealize.ShloMosaic.PureOps.Ideal.Laws

noncomputable section

open scoped BigOperators

namespace Cert.RefValue

open Cert.ReferenceIdeal Cert.ReferenceIdeal.Gen Cert.ReferenceIdeal.Read Cert.Spec Idealize.ShloMosaic
  Idealize.ShloMosaic.ValueIdx

variable (x : (⟨S16x512x64x64, .f32⟩ : BufTy).Contents (Elt Ideal))

/-! ## The index maps at coordinates -/

theorem lidx1 (b : Fin 16) (c d : Fin 512) (k : Fin 4096) : lidx_main_v1 (ix3 b c d) k = ix3 b c k :=
  funext fun a => Fin.ext (by match a with | ⟨0, _⟩ => rfl | ⟨1, _⟩ => rfl | ⟨2, _⟩ => rfl)
theorem ridx1 (b : Fin 16) (c d : Fin 512) (k : Fin 4096) : ridx_main_v1 (ix3 b c d) k = ix3 b d k :=
  funext fun a => Fin.ext (by match a with | ⟨0, _⟩ => rfl | ⟨1, _⟩ => rfl | ⟨2, _⟩ => rfl)
theorem lidx17 (b : Fin 16) (c : Fin 512) (n : Fin 4096) (k : Fin 512) : lidx_main_v17 (ix3 b c n) k = ix3 b c k :=
  funext fun a => Fin.ext (by match a with | ⟨0, _⟩ => rfl | ⟨1, _⟩ => rfl | ⟨2, _⟩ => rfl)
theorem ridx17 (b : Fin 16) (c : Fin 512) (n : Fin 4096) (k : Fin 512) : ridx_main_v17 (ix3 b c n) k = ix3 b k n :=
  funext fun a => Fin.ext (by match a with | ⟨0, _⟩ => rfl | ⟨1, _⟩ => rfl | ⟨2, _⟩ => rfl)
theorem idx13 (b : Fin 16) (c : Fin 512) (k : Fin 512) : idx_main_v13 (ix2 b c) k = ix3 b c k :=
  funext fun a => Fin.ext (by match a with | ⟨0, _⟩ => rfl | ⟨1, _⟩ => rfl | ⟨2, _⟩ => rfl)
/-- A keepdims column broadcast back along the last axis reads the column's entry. -/
theorem keep_idx (b : Fin 16) (c d : Fin 512) : idx_main_v3 (idx_main_v4 (ix3 b c d)) = ix2 b c :=
  funext fun a => Fin.ext (by match a with | ⟨0, _⟩ => rfl | ⟨1, _⟩ => rfl)

theorem keep_idx' (b : Fin 16) (c d : Fin 512) : idx_main_v9 (idx_main_v10 (ix3 b c d)) = ix2 b c :=
  funext fun a => Fin.ext (by match a with | ⟨0, _⟩ => rfl | ⟨1, _⟩ => rfl)
theorem keep_idx'' (b : Fin 16) (c d : Fin 512) : idx_main_v14 (idx_main_v15 (ix3 b c d)) = ix2 b c :=
  funext fun a => Fin.ext (by match a with | ⟨0, _⟩ => rfl | ⟨1, _⟩ => rfl)

/-- The reduced index (b, c) with the last coordinate put back. -/
theorem lift_eq (h : S16x512x512.Reduces [2] S16x512) (b : Fin 16) (c d : Fin 512) : h.lift (ix2 b c) d = ix3 b c d :=
  funext fun a => Fin.ext (by match a with | ⟨0, _⟩ => rfl | ⟨1, _⟩ => rfl | ⟨2, _⟩ => rfl)

/-- A maximum along the last axis from the word of −∞, at (b, c): the fold over the row. -/
theorem rowMax_apply (y : S16x512x512.Idx → EReal) (init : S_.Idx → EReal)
    (hinit : init (Shape.Idx.first h_S_) = negInf) (b : Fin 16) (c : Fin 512) :
    Host.reduce (FloatOps.maximumf (F := Ideal) (φ := .f32)) y init reducesTo_S16x512x512_S16x512_d2 h_S_ (ix2 b c)
      = foldMax fun d => y (ix3 b c d) := by
  have h : S16x512x512.Reduces [2] S16x512 := by decide
  refine (Host.reduce_eq_fold_single (FloatOps.maximumf (F := Ideal) (φ := .f32)) y init
    reducesTo_S16x512x512_S16x512_d2 h h_S_ (ix2 b c)).trans ?_
  rw [hinit]
  unfold foldMax
  exact congrArg (fun g : Fin 512 → EReal => (Finset.univ : Finset (Fin 512)).fold max negInf g)
    (funext fun d => congrArg y (lift_eq h b c d))

/-! ## The stages at batch element b and channel c -/

section Row
variable (b : Fin 16) (c : Fin 512)

/-- The row (b, c) of the feature array and the matrix of batch element b. -/
abbrev qrow : Fin 4096 → EReal := fun n => val_main_v0 (F := Ideal) x (ix3 b c n)
abbrev smat : Fin 512 → Fin 4096 → EReal := fun d n => val_main_v0 (F := Ideal) x (ix3 b d n)

theorem gram_eq (d : Fin 512) : val_main_v1 (F := Ideal) x (ix3 b c d) = gramRow (qrow x b c) (smat x b) d := by
  rw [val_main_v1_apply]
  unfold gramRow
  exact Finset.sum_congr rfl fun k _ => by rw [lidx1, ridx1]

theorem max1_eq : val_main_v2 (F := Ideal) x (ix2 b c) = foldMax (gramRow (qrow x b c) (smat x b)) := by
  unfold val_main_v2
  refine (rowMax_apply _ _ rfl b c).trans ?_
  exact congrArg foldMax (funext fun d => gram_eq x b c d)

theorem shifted_eq (d : Fin 512) : val_main_v5 (F := Ideal) x (ix3 b c d) = shifted (qrow x b c) (smat x b) d := by
  rw [val_main_v5_apply, val_main_v4_apply, val_main_v3_apply, keep_idx, max1_eq, gram_eq]
  rfl

theorem max2_eq : val_main_v8 (F := Ideal) x (ix2 b c) = max negInf (foldMax (shifted (qrow x b c) (smat x b))) := by
  rw [val_main_v8_apply, val_main_v7_apply]
  unfold val_main_v6
  rw [rowMax_apply _ _ rfl b c, (funext fun d => shifted_eq x b c d : (fun d => val_main_v5 (F := Ideal) x (ix3 b c d)) = _)]
  rfl

theorem expo_eq (d : Fin 512) : val_main_v12 (F := Ideal) x (ix3 b c d) = expo (qrow x b c) (smat x b) d := by
  rw [val_main_v12_apply, val_main_v11_apply, val_main_v10_apply, val_main_v9_apply,
    keep_idx', max2_eq, shifted_eq]
  rfl

theorem sum_eq : val_main_v13 (F := Ideal) x (ix2 b c) = ∑ d : Fin 512, expo (qrow x b c) (smat x b) d := by
  rw [val_main_v13_apply, val_main_cst_2_apply]
  show Ideal.ofBits .f32 0x00000000#32 + _ = _
  rw [Ideal.ofBits_zero_f32, zero_add]
  exact Finset.sum_congr rfl fun k _ => by rw [idx13, expo_eq]

theorem attn_eq (d : Fin 512) : val_main_v16 (F := Ideal) x (ix3 b c d) = attn (qrow x b c) (smat x b) d := by
  rw [val_main_v16_apply, val_main_v15_apply, val_main_v14_apply,
    keep_idx'', sum_eq, expo_eq]
  rfl

/-- The last product plus the row is the row formula. -/
theorem row_eq (n : Fin 4096) :
    val_main_v17 (F := Ideal) x (ix3 b c n) + val_main_v0 (F := Ideal) x (ix3 b c n)
      = whole (val_main_v0 (F := Ideal) x) b c n := by
  rw [val_main_v17_apply]
  unfold whole rowOut
  exact congrArg (· + val_main_v0 (F := Ideal) x (ix3 b c n))
    (Finset.sum_congr rfl fun k _ => by rw [lidx17, ridx17, attn_eq])

end Row

/-! ## The reshape back, and the residual -/

/-- The reshape of any array [16, 512, 4096] to [16, 512, 64, 64] reads the array at the index of the same row-major
    position. -/
theorem unflat_apply (y : S16x512x4096.Idx → EReal) (i : S16x512x64x64.Idx) :
    shapeCast S16x512x64x64 y shapeCasts_S16x512x4096_S16x512x64x64 i = y (idx_main_v18 i) :=
  shapeCast_apply y shapeCasts_S16x512x4096_S16x512x64x64 i (idx_main_v18 i)
    (by rewrite [Shape.rowMajor_val_three, Shape.rowMajor_val_four]; have h0 : (i 0).val < 16 := (i 0).isLt; have h1 : (i 1).val < 512 := (i 1).isLt; have h2 : (i 2).val < 64 := (i 2).isLt; have h3 : (i 3).val < 64 := (i 3).isLt; show (((((i 0).val * 512 + (i 1).val) * 64 + (i 2).val) * 64 + (i 3).val) / 2097152 * 512 + ((((i 0).val * 512 + (i 1).val) * 64 + (i 2).val) * 64 + (i 3).val) / 4096 % 512) * 4096 + ((((i 0).val * 512 + (i 1).val) * 64 + (i 2).val) * 64 + (i 3).val) % 4096 = (((i 0).val * 512 + (i 1).val) * 64 + (i 2).val) * 64 + (i 3).val; omega)

/-- THE REFERENCE'S RESULT: the row formula of the reshaped argument, reshaped back. -/
theorem result_eq : val_main_v19 (F := Ideal) x
    = shapeCast S16x512x64x64 (wholeArr (shapeCast S16x512x4096 x shapeCasts_S16x512x64x64_S16x512x4096))
        shapeCasts_S16x512x4096_S16x512x64x64 := by
  funext i
  rw [val_main_v19_apply, val_main_v18_apply, unflat_apply]
  have hx : x i = val_main_v0 (F := Ideal) x (idx_main_v18 i) := by
    unfold val_main_v0
    rw [← unflat_apply (shapeCast S16x512x4096 x shapeCasts_S16x512x64x64_S16x512x4096) i, shapeCast_shapeCast]
  show val_main_v17 (F := Ideal) x (idx_main_v18 i) + x i = wholeArr (val_main_v0 (F := Ideal) x) (idx_main_v18 i)
  rw [hx]
  generalize idx_main_v18 i = j
  obtain ⟨b, c, n, rfl⟩ : ∃ (b : Fin 16) (c : Fin 512) (n : Fin 4096), j = ix3 b c n := ⟨j 0, j 1, j 2, eq_ix3 j⟩
  rw [wholeArr_apply]
  exact row_eq x b c n

end Cert.RefValue

end
-- ==== Proof.lean ====
/-
  Channel attention with a residual, kernel against reference, over the extended reals.

  For an input x : [16, 512, 64, 64] let A = x reshaped to [16, 512, 4096]: for each batch element b a matrix S_b of 512
  channel rows.  Both programs compute, for every batch element b and channel c with q the row c of S_b,

      out (b, c, ·) = (∑_d w_d · S_b (d, ·)) + q,     w = softmax over d of ((max_d g_d) − g_d),     g_d = ∑ₙ q n · S_b (d, n),

  and reshape the result back to [16, 512, 64, 64] (`Spec.rowOut`, `Spec.wholeArr`; the softmax subtracts its own row
  maximum first, and every maximum is a fold of max from the value of the f32 word of −∞, in both programs).

  The kernel does this on a 16 × 4 grid: point (b, s) handles rows 128·s … 128·s + 127 of batch element b.  At s = 0 it
  copies S_b into a scratch that it carries over the other three slabs (the narrowing of that copy to bf16 is the identity
  on extended reals), so at every point the scratch holds S_b (by induction on the point); each point's two matrix
  products are the sums above, its lane reductions the folds and sums above, and the 64 output blocks tile the array.
  The reference does the same with two batched matrix products and whole-array reductions.  Equality needs no finiteness:
  both sides are the same expression in +, ·, −, max, exp and the quotient, up to the order of the sums' index sets, the
  reference's sum of exponentials starting from the word of zero, and the residual term being added before the final
  reshape (kernel) or after it (reference), where reshaping there and back is the identity.

  The three frames are the generated ones (the reference's is its generated run with the result dropped); the ideal pass
  rewrote nothing, so `preserves` is `True`.
-/
import proofs.«108836_j19258633356089_1_alg».proof.Defs
import proofs.«108836_j19258633356089_1_alg».proof.Proof.Gen.Kernel
import proofs.«108836_j19258633356089_1_alg».proof.Proof.Gen.Kernel.Skeleton
import proofs.«108836_j19258633356089_1_alg».proof.Proof.Gen.Kernel.Launch
import proofs.«108836_j19258633356089_1_alg».proof.Proof.Gen.Kernel.Points
import proofs.«108836_j19258633356089_1_alg».proof.Proof.Gen.Kernel.Frame
import proofs.«108836_j19258633356089_1_alg».proof.Proof.Gen.KernelIdeal
import proofs.«108836_j19258633356089_1_alg».proof.Proof.Gen.KernelIdeal.Skeleton
import proofs.«108836_j19258633356089_1_alg».proof.Proof.Gen.KernelIdeal.Launch
import proofs.«108836_j19258633356089_1_alg».proof.Proof.Gen.KernelIdeal.Points
import proofs.«108836_j19258633356089_1_alg».proof.Proof.Gen.KernelIdeal.Frame
import proofs.«108836_j19258633356089_1_alg».proof.Proof.Gen.ReferenceIdeal
import proofs.«108836_j19258633356089_1_alg».proof.Proof.Gen.ReferenceIdeal.Run
import proofs.«108836_j19258633356089_1_alg».proof.Proof.Gen.ReferenceIdeal.Read
import proofs.«108836_j19258633356089_1_alg».proof.Proof.Gen.Pre_finite_inputs
import proofs.«108836_j19258633356089_1_alg».proof.Proof.KernelValue
import proofs.«108836_j19258633356089_1_alg».proof.Proof.RefValue
import Idealize.ShloMosaic.Adequacy
import Idealize.ShloMosaic.Init

noncomputable section

namespace Cert.Proof

open Idealize.ShloMosaic Idealize.SL.Sem

/-- The word-level kernel terminates, faults nowhere and leaves its argument: the generated frame. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the kernel and its reading over the extended reals. -/
theorem preserves : Cert.preserves_Kernel_KernelIdeal := trivial

/-- From memories that agree on the argument both programs end with the row formula of the reshaped argument, reshaped
    back: the kernel by its blocks and its carried scratch, the reference stage by stage. -/
theorem algebraic : Cert.algebraic_KernelIdeal_ReferenceIdeal := by
  intro m ρ m' ρ' _ hagree
  refine ⟨fun c => Cert.KernelValue.result (m ((c.tc : Thread Cert.KernelIdeal.nD Cert.KernelIdeal.τ).loc Cert.KernelIdeal.main_arg0)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefValue.result_eq, hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
